-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S64x4096 : Shape := ⟨2, ![64, 4096]⟩
abbrev S4096x64 : Shape := ⟨2, ![4096, 64]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_arg4 : FVec F S4096x64 .f32) (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  let main_v19 : FVec F S4096x64 .f32 := Host.absf main_arg4
  let main_cst_6 : FVec F S_ .f32 := constant S_ .f32 0x7F800000#32
  let main_v20 : FVec F S4096x64 .f32 := broadcastInDim S4096x64 ![] bcast_S_S4096x64 main_cst_6
  let main_v21 : IVec S4096x64 1 := cmpf .olt main_v19 main_v20
  let main_c_7 : IVec S_ 1 := constantI S_ 1 1#1
  let main_v22 : IVec S_ 1 := (fun x v => Host.reduce IntOp.andi x v reducesTo_S4096x64_S_d0_1 h_S_) main_v21 main_c_7
  let main_v23 : IVec S_ 1 := andi main_v18 main_v22
  main_v23

def fn {F : FTy → Type} [FloatOps F] (main_arg0 : FVec F S8x2048x4096 .f32) (main_arg1 : FVec F S4096x4096 .f32) (main_arg2 : FVec F S4096 .f32) (main_arg3 : FVec F S64x4096 .f32) (main_arg4 : FVec F S4096x64 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_arg4 main_v13 main_v16
-- ==== Kernel.lean ====
abbrev S8x2048x4096 : Shape := ⟨3, ![8, 2048, 4096]⟩
abbrev S4096x4096 : Shape := ⟨2, ![4096, 4096]⟩
abbrev S4096 : Shape := ⟨1, ![4096]⟩
abbrev S64x4096 : Shape := ⟨2, ![64, 4096]⟩
abbrev S4096x64 : Shape := ⟨2, ![4096, 64]⟩
abbrev S1x4096 : Shape := ⟨2, ![1, 4096]⟩
abbrev S16384x4096 : Shape := ⟨2, ![16384, 4096]⟩
abbrev S128x4096 : Shape := ⟨2, ![128, 4096]⟩

abbrev nBuf : Space → Nat
  | .hbm => 13
  | .vmem => 6
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S64x4096, .f32⟩
  | .hbm, ⟨4, _⟩ => ⟨S4096x64, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x4096, .bf16⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S8x2048x4096, .f32⟩
  | .local _ .vmem, ⟨0, _⟩ => ⟨S128x4096, .f32⟩
  | .local _ .vmem, ⟨1, _⟩ => ⟨S128x4096, .f32⟩
  | .local _ .vmem, ⟨2, _⟩ => ⟨S4096x4096, .bf16⟩
  | .local _ .vmem, ⟨3, _⟩ => ⟨S1x4096, .f32⟩
  | .local _ .vmem, ⟨4, _⟩ => ⟨S128x4096, .f32⟩
  | .local _ .vmem, ⟨5, _⟩ => ⟨S128x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  transposes_S4096x4096_S4096x4096_1_0 : S4096x4096.Transposes [1, 0] S4096x4096
  shapeCasts_S4096_S1x4096 : S4096.ShapeCasts S1x4096
  shapeCasts_S8x2048x4096_S16384x4096 : S8x2048x4096.ShapeCasts S16384x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  shapeCasts_S16384x4096_S8x2048x4096 : S16384x4096.ShapeCasts S8x2048x4096
  dot_S4096x64_S64x4096_S4096x4096_1_0_0_1_n_n_wf : DotDims.WF S4096x64 S64x4096 S4096x4096 [1] [0] [0] [1] [] []
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S16384x4096.size a
  hwx0_0 : ∀ i : grid0.Coords, EltTy.bits .f32 = 32 ∨ (Rect.block (s := S16384x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S16384x4096.size a
  hwx0_3 : ∀ i : grid0.Coords, EltTy.bits .f32 = 32 ∨ (Rect.block (s := S16384x4096) S128x4096.size (cc0_transform_3 i) (hinb0_3 i)).WholeWords (EltTy.packing .f32)

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_v5) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S64x4096 : Shape := ⟨2, ![64, 4096]⟩
abbrev S4096x64 : Shape := ⟨2, ![4096, 64]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S64x4096, .f32⟩
  | .hbm, ⟨4, _⟩ => ⟨S4096x64, .f32⟩
  | .hbm, ⟨5, _⟩ => ⟨S8x2048x4096, .f32⟩
  | .hbm, ⟨6, _⟩ => ⟨S1x1x4096, .f32⟩
  | .hbm, ⟨7, _⟩ => ⟨S8x2048x4096, .f32⟩
  | .hbm, ⟨8, _⟩ => ⟨S8x2048x4096, .f32⟩
  | .hbm, ⟨9, _⟩ => ⟨S4096x4096, .f32⟩
  | .hbm, ⟨10, _⟩ => ⟨S8x2048x4096, .f32⟩
  | .hbm, ⟨11, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []
  dot_S4096x64_S64x4096_S4096x4096_1_0_0_1_n_n_wf : DotDims.WF S4096x64 S64x4096 S4096x4096 [1] [0] [0] [1] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf

class Facts : Prop extends Facts₀ where

variable [Facts]
-- ==== Proof.Spec.lean ====
/-
  The adapted linear layer as ONE function of the five argument arrays, index by index, on the extended reals,
  written in the two arrangements the two programs compute it in, and the law that joins them.

  With x : [8, 2048, 4096], W : [4096, 4096] (rows are outputs), bias : [4096], A : [64, 4096], B : [4096, 64] and
  the low-rank update  Δ[o, k] = Σ_r B[o, r] · A[r, k] :
    • merged:    out[b, s, o] = ( Σ_k x[b, s, k] · (W[o, k] + Δ[o, k]) ) + bias[o]
    • separate:  out[b, s, o] = ( (Σ_k x[b, s, k] · W[o, k]) + bias[o] ) + Σ_k x[b, s, k] · Δ[o, k]
  The two agree when every entry of x, W, A and B is a real number: then each Δ[o, k] is real, a real factor
  distributes over a sum of two reals, a finite sum of sums splits, and the bias moves across by commutativity.
  (On the extended reals distributivity fails at opposite infinities, which is why finiteness is needed; the bias
  may be anything.)
-/
import Idealize.ShloMosaic.Lib.ValueIdx
import Idealize.ShloMosaic.PureOps.Ideal

noncomputable section

namespace Cert.Adapter

open Idealize.ShloMosaic Idealize.ShloMosaic.ValueIdx

/-! ## Reals inside the extended reals -/

/-- An extended real that is a real number. -/
def IsReal (a : EReal) : Prop := ∃ r : ℝ, a = (r : EReal)

theorem IsReal.add {a b : EReal} (ha : IsReal a) (hb : IsReal b) : IsReal (a + b) := by
  obtain ⟨r, rfl⟩ := ha; obtain ⟨s, rfl⟩ := hb
  exact ⟨r + s, (EReal.coe_add r s).symm⟩

theorem IsReal.mul {a b : EReal} (ha : IsReal a) (hb : IsReal b) : IsReal (a * b) := by
  obtain ⟨r, rfl⟩ := ha; obtain ⟨s, rfl⟩ := hb
  exact ⟨r * s, (EReal.coe_mul r s).symm⟩

theorem IsReal.zero : IsReal 0 := ⟨0, EReal.coe_zero.symm⟩

/-- A finite sum of real numbers is a real number. -/
theorem IsReal.sum {ι : Type*} (s : Finset ι) (f : ι → EReal) (h : ∀ k ∈ s, IsReal (f k)) : IsReal (∑ k ∈ s, f k) := by
  classical
  induction s using Finset.induction_on with
  | empty => rw [Finset.sum_empty]; exact IsReal.zero
  | insert a s ha ih =>
    rw [Finset.sum_insert ha]
    exact (h a (Finset.mem_insert_self a s)).add (ih fun k hk => h k (Finset.mem_insert_of_mem hk))

/-- A real factor distributes over a sum of two reals. -/
theorem mul_add_of_real {a b c : EReal} (ha : IsReal a) (hb : IsReal b) (hc : IsReal c) : a * (b + c) = a * b + a * c := by
  obtain ⟨r, rfl⟩ := ha; obtain ⟨s, rfl⟩ := hb; obtain ⟨t, rfl⟩ := hc
  rw [← EReal.coe_add, ← EReal.coe_mul, ← EReal.coe_mul, ← EReal.coe_mul, ← EReal.coe_add, mul_add]

/-- THE LAW. Over any finite index type, for real x, w, d and any p:
    (Σ_k x k · (w k + d k)) + p = ((Σ_k x k · w k) + p) + Σ_k x k · d k. -/
theorem merged_eq_separate {ι : Type*} [Fintype ι] (x w d : ι → EReal) (p : EReal)
    (hx : ∀ k, IsReal (x k)) (hw : ∀ k, IsReal (w k)) (hd : ∀ k, IsReal (d k)) :
    (∑ k, x k * (w k + d k)) + p = ((∑ k, x k * w k) + p) + ∑ k, x k * d k := by
  rw [Finset.sum_congr rfl fun k _ => mul_add_of_real (hx k) (hw k) (hd k), Finset.sum_add_distrib]
  exact add_right_comm _ _ _

/-! ## The layer -/

abbrev SX : Shape := ⟨3, ![8, 2048, 4096]⟩
abbrev SW : Shape := ⟨2, ![4096, 4096]⟩
abbrev SBias : Shape := ⟨1, ![4096]⟩
abbrev SA : Shape := ⟨2, ![64, 4096]⟩
abbrev SB : Shape := ⟨2, ![4096, 64]⟩

/-- The low-rank update's entry: Δ[o, k] = Σ_r B[o, r] · A[r, k]. -/
def delta (A : SA.Idx → EReal) (B : SB.Idx → EReal) (o k : Fin 4096) : EReal :=
  ∑ r : Fin 64, B (ix2 o r) * A (ix2 r k)

/-- The layer with the update merged into the weight before the product. -/
def merged (x : SX.Idx → EReal) (W : SW.Idx → EReal) (bias : SBias.Idx → EReal) (A : SA.Idx → EReal) (B : SB.Idx → EReal)
    (b : Fin 8) (s : Fin 2048) (o : Fin 4096) : EReal :=
  (∑ k : Fin 4096, x (ix3 b s k) * (W (ix2 o k) + delta A B o k)) + bias (ix1 o)

/-- The layer with the base product, the bias and the update's product added in turn. -/
def separate (x : SX.Idx → EReal) (W : SW.Idx → EReal) (bias : SBias.Idx → EReal) (A : SA.Idx → EReal) (B : SB.Idx → EReal)
    (b : Fin 8) (s : Fin 2048) (o : Fin 4096) : EReal :=
  ((∑ k : Fin 4096, x (ix3 b s k) * W (ix2 o k)) + bias (ix1 o)) + ∑ k : Fin 4096, x (ix3 b s k) * delta A B o k

/-- With real entries in A and B the update is real. -/
theorem delta_real (A : SA.Idx → EReal) (B : SB.Idx → EReal) (hA : ∀ i, IsReal (A i)) (hB : ∀ i, IsReal (B i))
    (o k : Fin 4096) : IsReal (delta A B o k) :=
  IsReal.sum _ _ fun r _ => (hB _).mul (hA _)

/-- The two arrangements agree on real x, W, A, B. -/
theorem merged_eq (x : SX.Idx → EReal) (W : SW.Idx → EReal) (bias : SBias.Idx → EReal) (A : SA.Idx → EReal) (B : SB.Idx → EReal)
    (hx : ∀ i, IsReal (x i)) (hW : ∀ i, IsReal (W i)) (hA : ∀ i, IsReal (A i)) (hB : ∀ i, IsReal (B i))
    (b : Fin 8) (s : Fin 2048) (o : Fin 4096) :
    merged x W bias A B b s o = separate x W bias A B b s o :=
  merged_eq_separate (fun k => x (ix3 b s k)) (fun k => W (ix2 o k)) (fun k => delta A B o k) (bias (ix1 o))
    (fun _ => hx _) (fun _ => hW _) (fun k => delta_real A B hA hB o k)

/-- The two arrangements as whole arrays. -/
def mergedArr (x : SX.Idx → EReal) (W : SW.Idx → EReal) (bias : SBias.Idx → EReal) (A : SA.Idx → EReal) (B : SB.Idx → EReal) :
    SX.Idx → EReal := fun i => merged x W bias A B (i 0) (i 1) (i 2)

def separateArr (x : SX.Idx → EReal) (W : SW.Idx → EReal) (bias : SBias.Idx → EReal) (A : SA.Idx → EReal) (B : SB.Idx → EReal) :
    SX.Idx → EReal := fun i => separate x W bias A B (i 0) (i 1) (i 2)

/-- The two arrays are equal on real x, W, A, B. -/
theorem mergedArr_eq (x : SX.Idx → EReal) (W : SW.Idx → EReal) (bias : SBias.Idx → EReal) (A : SA.Idx → EReal) (B : SB.Idx → EReal)
    (hx : ∀ i, IsReal (x i)) (hW : ∀ i, IsReal (W i)) (hA : ∀ i, IsReal (A i)) (hB : ∀ i, IsReal (B i)) :
    mergedArr x W bias A B = separateArr x W bias A B :=
  funext fun i => merged_eq x W bias A B hx hW hA hB (i 0) (i 1) (i 2)

end Cert.Adapter

end
-- ==== Proof.Finite.lean ====
/-
  The precondition "every float input is finite", read back: from the printed predicate's result being 1 to
  "every entry of every argument array is a real number".

  The predicate is a conjunction of five tests `all (|x| < +∞)`, one per argument array. Each test is an `and`-reduction,
  over all axes, of the elementwise comparison of `|x|` with the broadcast scalar whose word 0x7F800000 denotes `+∞`.
  Read at the ideal instance an entry is an extended real and `|a|` is `max a (-a)`; `max a (-a) < ⊤` rules out both
  `⊤` and `⊥`, so the entry is the image of a real.
-/
import proofs.«129016_j52836687675854_2_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic

/-- The f32 word `0x7F800000` (sign 0, exponent all ones, fraction 0) denotes `+∞`. -/
theorem ofBits_posInf : Ideal.ofBits .f32 0x7F800000#32 = (⊤ : EReal) := by
  simp [Ideal.ofBits, Ideal.ieee]

/-- An extended real whose absolute value `max a (-a)` is below `⊤` is a real: `a = ⊤` gives `max ⊤ ⊥ = ⊤` and
    `a = ⊥` gives `max ⊥ ⊤ = ⊤`, neither below `⊤`. -/
theorem real_of_abs_lt_top (a : EReal) (h : max a (-a) < ⊤) : ∃ r : ℝ, a = (r : EReal) := by
  induction a using EReal.rec with
  | bot => exact absurd h (by simp)
  | top => exact absurd h (by simp)
  | coe r => exact ⟨r, rfl⟩

/-- A one-bit word made from a Boolean is 1 exactly when the Boolean is true. -/
theorem ofBool_eq_one {b : Bool} : BitVec.ofBool b = 1#1 ↔ b = true := by cases b <;> decide

/-- One element of a test: if the comparison `|a| < +∞` (the ordered "less than" against the word of `+∞`) came out 1,
    then `a` is a real. -/
theorem real_of_cmp_abs_inf (a : Ideal .f32)
    (h : FloatOps.cmpf .olt (FloatOps.hostAbsf a) (FloatOps.ofBits (F := Ideal) .f32 0x7F800000#32) = 1#1) :
    ∃ r : ℝ, a = (r : EReal) := by
  apply real_of_abs_lt_top
  have h' : BitVec.ofBool (decide (max a (-a) < Ideal.ofBits .f32 0x7F800000#32)) = 1#1 := h
  rw [ofBits_posInf] at h'
  exact of_decide_eq_true (ofBool_eq_one.1 h')

/-- The scalar shape has one index. -/
instance subsingleton_scalar_idx : Subsingleton (Cert.Pre_finite_inputs.S_).Idx :=
  ⟨fun a b => funext fun d => d.elim0⟩

/-- **One array's test, over any shape.** If `all (|x| < +∞)` is 1 — the `and`-reduction to the scalar shape of the
    elementwise comparison of `|x|` with the broadcast of the scalar `+∞` — then every entry of `x` is a real. -/
theorem real_of_all_abs_lt_inf {s u : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < u.numel) (init : IVec u 1)
    (j : Cert.Pre_finite_inputs.S_.Idx)
    (e : Host.reduce IntOp.andi
          (cmpf .olt (Host.absf x)
            (broadcastInDim s ![] hb (constant Cert.Pre_finite_inputs.S_ .f32 0x7F800000#32)))
          init hr hu j = 1#1) :
    ∀ i, ∃ r : ℝ, x i = (r : EReal) := fun i =>
  real_of_cmp_abs_inf (x i) (Host.reduce_andi_all _ init hr hu j e i)

open Cert.Pre_finite_inputs in
/-- **The precondition read back**: if the printed predicate is 1, every entry of each of the five argument arrays is a
    real number. The result at the scalar index is the conjunction of the five tests; each conjunct is one instance of
    `real_of_all_abs_lt_inf`. -/
theorem real_of_pre
    (x0 : FVec Ideal Cert.Pre_finite_inputs.S8x2048x4096 .f32) (x1 : FVec Ideal Cert.Pre_finite_inputs.S4096x4096 .f32)
    (x2 : FVec Ideal Cert.Pre_finite_inputs.S4096 .f32) (x3 : FVec Ideal Cert.Pre_finite_inputs.S64x4096 .f32)
    (x4 : FVec Ideal Cert.Pre_finite_inputs.S4096x64 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ValueIdx.ix0
  dsimp only [Cert.Pre_finite_inputs.fn, Cert.Pre_finite_inputs.fn_part1, andi] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨real_of_all_abs_lt_inf x0 _ _ _ _ _ e0, real_of_all_abs_lt_inf x1 _ _ _ _ _ e1,
    real_of_all_abs_lt_inf x2 _ _ _ _ _ e2, real_of_all_abs_lt_inf x3 _ _ _ _ _ e3,
    real_of_all_abs_lt_inf x4 _ _ _ _ _ e4⟩

end Cert.Finite

end
-- ==== Proof.RefValue.lean ====
/-
  The reference program's result, read at an index, is the layer in its "separate" arrangement: the base product
  x · Wᵀ, then the bias, then the product of x with the low-rank update B · A.
-/
import proofs.«129016_j52836687675854_2_alg».proof.Proof.Gen.ReferenceIdeal.Read
import proofs.«129016_j52836687675854_2_alg».proof.Proof.Spec

noncomputable section

namespace Cert.Adapter.Ref

open Cert.ReferenceIdeal Cert.ReferenceIdeal.Read Idealize.ShloMosaic Idealize.ShloMosaic.ValueIdx Cert.Adapter

/-! ## The reference's operand indices, by coordinates -/

theorem lidx_v0 (b : Fin 8) (s : Fin 2048) (o k : Fin 4096) : lidx_main_v0 (ix3 b s o) k = ix3 b s k :=
  funext fun a => Fin.ext (by match a with | ⟨0, _⟩ => rfl | ⟨1, _⟩ => rfl | ⟨2, _⟩ => rfl)

theorem ridx_v0 (b : Fin 8) (s : Fin 2048) (o k : Fin 4096) : ridx_main_v0 (ix3 b s o) k = ix2 o k :=
  funext fun a => Fin.ext (by match a with | ⟨0, _⟩ => rfl | ⟨1, _⟩ => rfl)

theorem idx_v1_v2 (b : Fin 8) (s : Fin 2048) (o : Fin 4096) : idx_main_v1 (idx_main_v2 (ix3 b s o)) = ix1 o :=
  funext fun a => Fin.ext (by match a with | ⟨0, _⟩ => rfl)

theorem lidx_v5 (b : Fin 8) (s : Fin 2048) (o k : Fin 4096) : lidx_main_v5 (ix3 b s o) k = ix3 b s k :=
  funext fun a => Fin.ext (by match a with | ⟨0, _⟩ => rfl | ⟨1, _⟩ => rfl | ⟨2, _⟩ => rfl)

theorem ridx_v5 (b : Fin 8) (s : Fin 2048) (o k : Fin 4096) : ridx_main_v5 (ix3 b s o) k = ix2 o k :=
  funext fun a => Fin.ext (by match a with | ⟨0, _⟩ => rfl | ⟨1, _⟩ => rfl)

theorem lidx_v4 (o k : Fin 4096) (r : Fin 64) : lidx_main_v4 (ix2 o k) r = ix2 o r :=
  funext fun a => Fin.ext (by match a with | ⟨0, _⟩ => rfl | ⟨1, _⟩ => rfl)

theorem ridx_v4 (o k : Fin 4096) (r : Fin 64) : ridx_main_v4 (ix2 o k) r = ix2 r k :=
  funext fun a => Fin.ext (by match a with | ⟨0, _⟩ => rfl | ⟨1, _⟩ => rfl)

/-- The update as the reference computes it, B · A at (o, k), is Δ[o, k]. -/
theorem v4_apply (x3 : FVec Ideal S64x4096 .f32) (x4 : FVec Ideal S4096x64 .f32) (o k : Fin 4096) :
    val_main_v4 (F := Ideal) x3 x4 (ix2 o k) = delta x3 x4 o k := by
  rw [val_main_v4_apply]
  unfold delta
  refine Finset.sum_congr rfl fun r _ => ?_
  rw [lidx_v4, ridx_v4]

/-- THE REFERENCE AT AN INDEX: its result at (b, s, o) is the separate arrangement there. -/
theorem result_apply (x0 : FVec Ideal S8x2048x4096 .f32) (x1 : FVec Ideal S4096x4096 .f32) (x2 : FVec Ideal S4096 .f32)
    (x3 : FVec Ideal S64x4096 .f32) (x4 : FVec Ideal S4096x64 .f32) (b : Fin 8) (s : Fin 2048) (o : Fin 4096) :
    val_main_v6 (F := Ideal) x0 x1 x2 x3 x4 (ix3 b s o) = separate x0 x1 x2 x3 x4 b s o := by
  rw [val_main_v6_apply, val_main_v3_apply, val_main_v0_apply, val_main_v2_apply, val_main_v1_apply, val_main_v5_apply]
  unfold separate
  rw [Ideal.addf_def, Ideal.addf_def, idx_v1_v2]
  congr 1
  · congr 1
    refine Finset.sum_congr rfl fun k _ => ?_
    rw [lidx_v0, ridx_v0]
  · refine Finset.sum_congr rfl fun k _ => ?_
    rw [lidx_v5, ridx_v5, v4_apply]

end Cert.Adapter.Ref

end
-- ==== Proof.LibMatmul.lean ====
/-
  A plain matrix product read at an index. For a product of an [m, k] by a [k, n] matrix that contracts the
  left operand's axis 1 with the right operand's axis 0 (no batch axes), the entry at (a, b) is the sum over c of
  A[a, c] · B[c, b] — both for the host's dot_general and for the in-kernel matmul into a zero accumulator, at the
  ideal values (extended reals, exact operations; a change of float format is the identity there).
-/
import Idealize.ShloMosaic.Lib.ValueIdx
import Idealize.ShloMosaic.PureOps.Ideal.Laws

namespace Cert.MatProd

open Idealize.ShloMosaic Idealize.ShloMosaic.ValueIdx

variable {m k n : ℕ}

/-- The operand indices of a plain product at output index (a, b) and contraction coordinate c are (a, c) and (c, b). -/
theorem lhsIdx_plain (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

theorem rhsIdx_plain (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's dot_general of a plain product, at (a, b): Σ_c A[a, c] · B[c, b]. -/
theorem dotGeneral_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_plain w a b c, rhsIdx_plain w a b c]

/-- The in-kernel matmul of a plain product into a zero accumulator, at (a, b): the same sum. -/
theorem matmul_zero_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_plain w a b c, rhsIdx_plain w a b c]

end Cert.MatProd
-- ==== Proof.KernelPayload.lean ====
/-
  The kernel body's stored value, read at an index of the output block. The body rounds its block of x to bf16
  (the identity on the ideal values), multiplies it by the whole resident weight matrix into a zero accumulator, and
  adds the one-row bias broadcast down the rows: at (p, q) that is  Σ_k x[p, k] · Wt[k, q]  +  bias[0, q].
-/
import proofs.«129016_j52836687675854_2_alg».proof.Proof.Gen.KernelIdeal.Skeleton
import proofs.«129016_j52836687675854_2_alg».proof.Proof.LibMatmul
import Idealize.ShloMosaic.Lib.ValueLayout
import Idealize.ShloMosaic.PureOps.Ideal.Laws

noncomputable section

namespace Cert.Adapter.Ker

open Cert.KernelIdeal Cert.KernelIdeal.Gen Idealize.ShloMosaic Idealize.ShloMosaic.ValueIdx

/-- The body's payload at (p, q): row p of the x block against column q of the weights, plus the bias at q. -/
theorem pay_apply (x0 : FVec Ideal S128x4096 .f32) (x1 : FVec Ideal S4096x4096 .bf16) (x2 : FVec Ideal S1x4096 .f32)
    (p : Fin 128) (q : Fin 4096) :
    k0_pay1 (F := Ideal) x0 x1 x2 (ix2 p q) = (∑ k : Fin 4096, x0 (ix2 p k) * x1 (ix2 k q)) + x2 (ix2 (0 : Fin 1) q) := by
  unfold k0_pay1
  rw [shapeCast_self, shapeCast_self, shapeCast_self]
  show FloatOps.matmul dot_S128x4096_S4096x4096_S128x4096_1_0_0_1_n_n none (truncf .bf16 x0 bitsLt_bf16_f32) x1
      (constant S128x4096 .f32 0x00000000#32) (ix2 p q)
    + broadcastTo S128x4096 x2 broadcasts_S1x4096_S128x4096 (ix2 p q) = _
  rw [broadcastTo_1b_ab_apply]
  refine congrArg (· + x2 (ix2 (0 : Fin 1) q)) ?_
  exact Cert.MatProd.matmul_zero_apply dot_S128x4096_S4096x4096_S128x4096_1_0_0_1_n_n_wf none
    (truncf .bf16 x0 bitsLt_bf16_f32) x1 p q

end Cert.Adapter.Ker

end
-- ==== Proof.KernelBlocks.lean ====
/-
  One whole-array function for the kernel's output: with X the flattened activations, Wt the transposed effective
  weight and bb the one-row bias, the output array [16384, 4096] holds at (r, q)
      Σ_k X[r, k] · Wt[k, q]  +  bb[0, q].
  A grid point T stores the 128 rows T · 128 … T · 128 + 127 of it: its block of X is those rows, its blocks of Wt
  and bb are the whole arrays, and the body's stored value at (p, q) is the formula at row T · 128 + p.
-/
import proofs.«129016_j52836687675854_2_alg».proof.Proof.KernelPayload

noncomputable section

namespace Cert.Adapter.Ker

open Cert.KernelIdeal Cert.KernelIdeal.Gen Idealize.ShloMosaic Idealize.ShloMosaic.ValueIdx

/-- The output entry at row r, column q. -/
def entry (X : S16384x4096.Idx → EReal) (Wt : S4096x4096.Idx → EReal) (bb : S1x4096.Idx → EReal)
    (r : Fin 16384) (q : Fin 4096) : EReal :=
  (∑ k : Fin 4096, X (ix2 r k) * Wt (ix2 k q)) + bb (ix2 (0 : Fin 1) q)

/-- The output array as one function of the three arrays the region is launched on. -/
def whole (X : S16384x4096.Idx → EReal) (Wt : S4096x4096.Idx → EReal) (bb : S1x4096.Idx → EReal) :
    S16384x4096.Idx → EReal := fun i => entry X Wt bb (i 0) (i 1)

/-- What the body stores at a grid point T, at the block index j, is the output entry at row T · 128 + j₀, column j₁ —
    given that the point's block of X is rows T · 128 … and its blocks of Wt and bb are the arrays themselves. -/
theorem block_eq (X : S16384x4096.Idx → EReal) (Wt : S4096x4096.Idx → EReal) (bb : S1x4096.Idx → EReal)
    (x0 : FVec Ideal S128x4096 .f32) (x1 : FVec Ideal S4096x4096 .bf16) (x2 : FVec Ideal S1x4096 .f32)
    (T : ℕ) (hT : T < 128)
    (h0 : ∀ (p : Fin 128) (k : Fin 4096), x0 (ix2 p k) = X (ix2 (⟨T * 128 + p.val, by omega⟩ : Fin 16384) k))
    (h1 : ∀ y, x1 y = Wt y) (h2 : ∀ y, x2 y = bb y) (j : S128x4096.Idx) :
    k0_pay1 (F := Ideal) x0 x1 x2 j
      = entry X Wt bb (⟨T * 128 + (j 0).val, by have := idx2_lt0 j; omega⟩ : Fin 16384) (⟨(j 1).val, idx2_lt1 j⟩ : Fin 4096) := by
  obtain ⟨p, q, rfl⟩ : ∃ (p : Fin 128) (q : Fin 4096), j = ix2 p q := ⟨j 0, j 1, eq_ix2 j⟩
  rw [pay_apply]
  unfold entry
  rw [h2]
  refine congrArg (· + bb (ix2 (0 : Fin 1) q)) (Finset.sum_congr rfl fun k _ => ?_)
  rw [h0, h1]

end Cert.Adapter.Ker

end
-- ==== Proof.KernelArray.lean ====
/-
  From blocks to the array. Grid point t of the 128 writes back rows t · 128 … t · 128 + 127 of the output array
  [16384, 4096]; what it writes is its block of the one whole-array function (Ker.whole) of the three arrays the
  region is launched on; the 128 blocks cover every row (row r belongs to point r / 128), so after the run the
  output array is that function.
-/
import proofs.«129016_j52836687675854_2_alg».proof.Proof.Gen.KernelIdeal.Frame
import proofs.«129016_j52836687675854_2_alg».proof.Proof.KernelBlocks
import Idealize.ShloMosaic.Lib.Pipeline.Value

set_option maxRecDepth 16384

noncomputable section

namespace Cert.Adapter.KerArr

open Cert.KernelIdeal Cert.KernelIdeal.Gen Idealize.ShloMosaic Idealize.ShloMosaic.TcCoe Idealize.ShloMosaic.ValueIdx
open Idealize.SL.Sem Cert.Adapter.Ker
open Idealize.ShloMosaic.Pipeline (Dat Cfg Window)

variable (m : (ℓ : Loc nD τ sig) → Buf (Elt Ideal) ℓ)

theorem offs_zero : (![0, 0] : Fin 2 → Nat) = fun _ => 0 := funext fun a => by fin_cases a <;> rfl

/-- The printed index maps over the grid: the activations' and the output's block index is the point itself along the
    rows and 0 along the columns; the weight's and the bias's block index is 0 on both axes. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The region's arrays, as arrays of extended reals. -/
abbrev arrX (c : Dev nD) : S16384x4096.Idx → EReal := V m c main_v5
abbrev arrWt (c : Dev nD) : S4096x4096.Idx → EReal := V m c main_v3
abbrev arrBias (c : Dev nD) : S1x4096.Idx → EReal := V m c main_v4

/-- WHAT POINT t WRITES BACK is block t of the whole-array function. -/
theorem flushed_eq (c : Dev nD) (t : Fin cfg0.N) :
    (dats m 0 c).flushed 3 t = ((cfg0.win 3).blk t).view.read (Elt Ideal) (whole (arrX m c) (arrWt m c) (arrBias m c)) := by
  show (cfg0.win 3).cut (grid0.coords t) ((dats m 0 c).after 3 t) = _
  rw [after0_3]
  unfold out0_3
  rw [View.canon_unit_zero offs_zero]
  simp only [View.ld_unit_zero (S := S128x4096) offs_zero, View.ld_unit_zero (S := S4096x4096) offs_zero,
    View.ld_unit_zero (S := S1x4096) offs_zero]
  obtain ⟨e0, e1, e2, e3, e4, e5, e6, e7⟩ := index_facts t
  have hN : cfg0.N = 128 := N_0
  have ht : t.val < 128 := hN ▸ t.isLt
  funext j
  show k0_pay1 (F := Ideal) (iblk m c 0 t) (iblk m c 1 t) (iblk m c 2 t) j
    = whole (arrX m c) (arrWt m c) (arrBias m c) (((cfg0.win 3).blk t).view.emb j)
  refine (block_eq (arrX m c) (arrWt m c) (arrBias m c) (iblk m c 0 t) (iblk m c 1 t) (iblk m c 2 t) t.val ht ?_ ?_ ?_ j).trans ?_
  · intro p k
    show V m c main_v5 (((cfg0.win 0).blk t).view.emb (ix2 p k)) = V m c main_v5 _
    refine congrArg (V m c main_v5) (funext fun a => Fin.ext ?_)
    match a with
    | ⟨0, _⟩ => show win0_0.index t (0 : Fin 2) * 128 + 1 * p.val = t.val * 128 + p.val; omega
    | ⟨1, _⟩ => show win0_0.index t (1 : Fin 2) * 4096 + 1 * k.val = k.val; omega
  · intro y
    show V m c main_v3 (((cfg0.win 1).blk t).view.emb y) = V m c main_v3 y
    refine congrArg (V m c main_v3) (funext fun a => Fin.ext ?_)
    match a with
    | ⟨0, _⟩ => show win0_1.index t (0 : Fin 2) * 4096 + 1 * (y 0).val = (y 0).val; omega
    | ⟨1, _⟩ => show win0_1.index t (1 : Fin 2) * 4096 + 1 * (y 1).val = (y 1).val; omega
  · intro y
    show V m c main_v4 (((cfg0.win 2).blk t).view.emb y) = V m c main_v4 y
    refine congrArg (V m c main_v4) (funext fun a => Fin.ext ?_)
    match a with
    | ⟨0, _⟩ => show win0_2.index t (0 : Fin 2) * 1 + 1 * (y 0).val = (y 0).val; omega
    | ⟨1, _⟩ => show win0_2.index t (1 : Fin 2) * 4096 + 1 * (y 1).val = (y 1).val; omega
  · show entry (arrX m c) (arrWt m c) (arrBias m c) _ _
      = entry (arrX m c) (arrWt m c) (arrBias m c) ((((cfg0.win 3).blk t).view.emb j) 0) ((((cfg0.win 3).blk t).view.emb j) 1)
    refine congrArg₂ (entry (arrX m c) (arrWt m c) (arrBias m c)) (Fin.ext ?_) (Fin.ext ?_)
    · show t.val * 128 + (j 0).val = win0_3.index t (0 : Fin 2) * 128 + 1 * (j 0).val
      omega
    · show (j 1).val = win0_3.index t (1 : Fin 2) * 4096 + 1 * (j 1).val
      omega

/-- An index of the output array is in point t's block iff each coordinate is in the block's range on its axis. -/
theorem mem_blk (t : Fin cfg0.N) (i : S16384x4096.Idx) :
    i ∈ ((cfg0.win 3).blk t).view.set ↔ ∀ a : Fin 2, win0_3.index t a * S128x4096.size a ≤ (i a).val ∧ (i a).val < win0_3.index t a * S128x4096.size a + S128x4096.size a := by
  show i ∈ ((View.whole main_v6).slice (win0_3.rect t)).set ↔ _
  rw [View.set_slice_whole, Rect.mem_set_unit]
  exact Iff.rfl

/-- Every row of the output array belongs to some point's block: row r to point r / 128. -/
theorem cover (i : S16384x4096.Idx) : ∃ t : Fin cfg0.N, (cfg0.win 3).flush t = true ∧ i ∈ ((cfg0.win 3).blk t).view.set := by
  have hi0 : (i 0).val < 16384 := idx2_lt0 i
  have hi1 : (i 1).val < 4096 := idx2_lt1 i
  have hN : cfg0.N = 128 := N_0
  let t : Fin cfg0.N := ⟨(i 0).val / 128, by rw [hN]; omega⟩
  obtain ⟨e0, e1, e2, e3, e4, e5, e6, e7⟩ := index_facts t
  have e6' : win0_3.index t (0 : Fin 2) = (i 0).val / 128 := e6
  refine ⟨t, flush0_3 t, ?_⟩
  rw [mem_blk]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 4096 ≤ (i 1).val ∧ (i 1).val < win0_3.index t (1 : Fin 2) * 4096 + 4096; omega

/-- THE OUTPUT ARRAY after the run is the whole-array function of the arrays the region is launched on. -/
theorem final (c : Dev nD) : (dats m 0 c).arrAt 3 cfg0.N = whole (arrX m c) (arrWt m c) (arrBias m c) :=
  (dats m 0 c).arrAt_eq_of_cover 3 (whole (arrX m c) (arrWt m c) (arrBias m c)) (fun t _ => flushed_eq m c t) (cover)

end Cert.Adapter.KerArr

end
-- ==== Proof.KernelInputs.lean ====
/-
  The three arrays the kernel's region is launched on, as the host lines before it leave them:
    • the activations x : [8, 2048, 4096] flattened to [16384, 4096]: row b · 2048 + s is x[b, s, ·];
    • the effective weight, transposed: Wt[k, o] = W[o, k] + Δ[o, k] with Δ = B · A (the rounding to bf16 is the
      identity on the ideal values);
    • the bias as one row [1, 4096].
-/
import proofs.«129016_j52836687675854_2_alg».proof.Proof.Gen.KernelIdeal.Frame
import proofs.«129016_j52836687675854_2_alg».proof.Proof.LibMatmul
import proofs.«129016_j52836687675854_2_alg».proof.Proof.Spec
import Idealize.ShloMosaic.Lib.StableHlo.Run
import Idealize.ShloMosaic.Lib.ValueLayout

noncomputable section

namespace Cert.Adapter.KerIn

open Cert.KernelIdeal Cert.KernelIdeal.Gen Idealize.ShloMosaic Idealize.ShloMosaic.TcCoe Idealize.ShloMosaic.ValueIdx
open Idealize.SL.Sem Idealize.ShloMosaic.StableHlo Cert.Adapter

variable (m : (ℓ : Loc nD τ sig) → Buf (Elt Ideal) ℓ)

/-- The five argument arrays on core c, as arrays of extended reals. -/
abbrev argX (c : Dev nD) : S8x2048x4096.Idx → EReal := m ((c : Thread nD τ).loc main_arg0)
abbrev argW (c : Dev nD) : S4096x4096.Idx → EReal := m ((c : Thread nD τ).loc main_arg1)
abbrev argBias (c : Dev nD) : S4096.Idx → EReal := m ((c : Thread nD τ).loc main_arg2)
abbrev argA (c : Dev nD) : S64x4096.Idx → EReal := m ((c : Thread nD τ).loc main_arg3)
abbrev argB (c : Dev nD) : S4096x64.Idx → EReal := m ((c : Thread nD τ).loc main_arg4)

/-- The flattened activations the region finds. -/
theorem V_v5 (c : Dev nD) : (V m c main_v5 : S16384x4096.Idx → EReal)
    = shapeCast S16384x4096 (argX m c) shapeCasts_S8x2048x4096_S16384x4096 := by
  show StableHlo.after hostOps0 (fun b => m (c, b)) (Proc.devRef .tc main_v5) = _
  after_results
  rfl

/-- The one-row bias the region finds. -/
theorem V_v4 (c : Dev nD) : (V m c main_v4 : S1x4096.Idx → EReal)
    = shapeCast S1x4096 (argBias m c) shapeCasts_S4096_S1x4096 := by
  show StableHlo.after hostOps0 (fun b => m (c, b)) (Proc.devRef .tc main_v4) = _
  after_results
  rfl

/-- The transposed effective weight the region finds. -/
theorem V_v3 (c : Dev nD) : (V m c main_v3 : S4096x4096.Idx → EReal)
    = transpose S4096x4096 [1, 0] (truncf (F := Ideal) (φ := .f32) .bf16 (addf (F := Ideal) (φ := .f32) (argW m c)
        (Host.dotGeneral (F := Ideal) (φ₁ := .f32) (φ₂ := .f32) dot_S4096x64_S64x4096_S4096x4096_1_0_0_1_n_n none (argB m c) (argA m c)))
        bitsLt_bf16_f32) transposes_S4096x4096_S4096x4096_1_0 := by
  show StableHlo.after hostOps0 (fun b => m (c, b)) (Proc.devRef .tc main_v3) = _
  after_results

/-- Row b · 2048 + s of the flattened activations is x[b, s, ·]. -/
theorem V_v5_apply (c : Dev nD) (b : Fin 8) (s : Fin 2048) (k : Fin 4096) :
    (V m c main_v5 : S16384x4096.Idx → EReal) (ix2 (⟨b.val * 2048 + s.val, by omega⟩ : Fin 16384) k)
      = argX m c (ix3 b s k) := by
  rw [V_v5]
  exact shapeCast_apply _ shapeCasts_S8x2048x4096_S16384x4096 _ _ (by
    rw [Shape.rowMajor_val_three, Shape.rowMajor_val_two]
    show (b.val * 2048 + s.val) * 4096 + k.val = (b.val * 2048 + s.val) * 4096 + k.val
    rfl)

/-- The bias row at (0, q) is bias[q]. -/
theorem V_v4_apply (c : Dev nD) (u : Fin 1) (q : Fin 4096) :
    (V m c main_v4 : S1x4096.Idx → EReal) (ix2 u q) = argBias m c (ix1 q) := by
  rw [V_v4]
  exact shapeCast_a_1a_apply _ shapeCasts_S4096_S1x4096 u q

/-- The transposed effective weight at (k, o) is W[o, k] + Δ[o, k]. -/
theorem V_v3_apply (c : Dev nD) (k o : Fin 4096) :
    (V m c main_v3 : S4096x4096.Idx → EReal) (ix2 k o)
      = argW m c (ix2 o k) + delta (argA m c) (argB m c) o k := by
  rw [V_v3, transpose_ix2_apply]
  show argW m c (ix2 o k) + Host.dotGeneral (F := Ideal) (φ₁ := .f32) (φ₂ := .f32) dot_S4096x64_S64x4096_S4096x4096_1_0_0_1_n_n none
      (argB m c) (argA m c) (ix2 o k) = _
  refine congrArg (argW m c (ix2 o k) + ·) ?_
  exact Cert.MatProd.dotGeneral_apply (φ₁ := .f32) (φ₂ := .f32) dot_S4096x64_S64x4096_S4096x4096_1_0_0_1_n_n_wf none (argB m c) (argA m c) o k

end Cert.Adapter.KerIn

end
-- ==== Proof.KernelRun.lean ====
/-
  The kernel program's result. After the region the output array [16384, 4096] holds the whole-array function of the
  region's three arrays; the host line after the region reshapes it to [8, 2048, 4096], so the result at (b, s, o) is
  the output array at row b · 2048 + s, column o — and, with the region's arrays read back to the arguments, that
  is the layer in its "merged" arrangement.
-/
import proofs.«129016_j52836687675854_2_alg».proof.Proof.KernelArray
import proofs.«129016_j52836687675854_2_alg».proof.Proof.KernelInputs
import Idealize.ShloMosaic.Lib.StableHlo.Run

set_option maxRecDepth 16384

noncomputable section

namespace Cert.Adapter.KerRun

open Cert.KernelIdeal Cert.KernelIdeal.Gen Idealize.ShloMosaic Idealize.ShloMosaic.TcCoe Idealize.ShloMosaic.ValueIdx
open Idealize.SL.Sem Idealize.ShloMosaic.StableHlo Cert.Adapter Cert.Adapter.Ker Cert.Adapter.KerArr Cert.Adapter.KerIn

variable (m : (ℓ : Loc nD τ sig) → Buf (Elt Ideal) ℓ) (ρ : Dev nD → PrngReg)

/-- The program's result buffer after the host line that follows the region: the output array, reshaped. -/
theorem tail_eq (c : Dev nD) :
    (Pipeline.afterTail₀ cfgs (dats m) 0 (V0 m) [hostOps1] c main_v7 : S8x2048x4096.Idx → EReal)
      = shapeCast S8x2048x4096 (whole (arrX m c) (arrWt m c) (arrBias m c)) shapeCasts_S16384x4096_S8x2048x4096 := by
  unfold Pipeline.afterTail₀
  show StableHlo.after hostOps1 _ (Proc.devRef .tc main_v7) = _
  after_results
  rw [(Pipeline.withArrays_arr spec0 launch0.win.arr_inj c _ _ 3).trans (final m c)]
  rfl

/-- The output entry at row b · 2048 + s, column o, in terms of the arguments: the merged arrangement at (b, s, o). -/
theorem entry_eq_merged (c : Dev nD) (b : Fin 8) (s : Fin 2048) (o : Fin 4096) :
    entry (arrX m c) (arrWt m c) (arrBias m c) (⟨b.val * 2048 + s.val, by omega⟩ : Fin 16384) o
      = merged (argX m c) (argW m c) (argBias m c) (argA m c) (argB m c) b s o := by
  unfold entry merged
  refine congrArg₂ (· + ·) (Finset.sum_congr rfl fun k _ => ?_) (V_v4_apply m c 0 o)
  exact congrArg₂ (· * ·) (V_v5_apply m c b s k) (V_v3_apply m c k o)

/-- The reshaped output array is the merged arrangement as a whole array. -/
theorem result_eq (c : Dev nD) :
    shapeCast S8x2048x4096 (whole (arrX m c) (arrWt m c) (arrBias m c)) shapeCasts_S16384x4096_S8x2048x4096
      = mergedArr (argX m c) (argW m c) (argBias m c) (argA m c) (argB m c) := by
  funext i
  obtain ⟨b, s, o, rfl⟩ : ∃ (b : Fin 8) (s : Fin 2048) (o : Fin 4096), i = ix3 b s o := ⟨i 0, i 1, i 2, eq_ix3 i⟩
  refine (shapeCast_apply _ shapeCasts_S16384x4096_S8x2048x4096 (ix3 b s o)
    (ix2 (⟨b.val * 2048 + s.val, by omega⟩ : Fin 16384) o) (by
      rw [Shape.rowMajor_val_three, Shape.rowMajor_val_two]
      rfl)).trans ?_
  exact entry_eq_merged m c b s o

/-- THE KERNEL PROGRAM'S RUN: every weakly fair execution terminates with the result buffer at the merged arrangement
    of the arguments, the arguments unchanged. -/
theorem run : θ_run defs (onTc (τ := τ) (main (F := Ideal))) ⟨m, fun _ => 0, ρ⟩ fun r => ∀ c : Dev nD,
      r.2.mem ((c.tc : Thread nD τ).loc main_v7) = mergedArr (argX m c) (argW m c) (argBias m c) (argA m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v7 (Pipeline.mem_restRefs_of main_v7 (by decide) (by decide))).trans (tail_eq m c)).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.Adapter.KerRun

end
-- ==== Proof.lean ====
/-
  The adapted linear layer  out = x · (W + B · A)ᵀ + bias  computed two ways.

  The kernel program first forms the effective weight W + B · A on the host (rounded to bf16 — the identity on the ideal
  values — and transposed), flattens x to [16384, 4096], and runs a tiled matrix product over 128 row blocks with the
  bias added in the body; the result is reshaped back to [8, 2048, 4096]:
      out[b, s, o] = ( Σ_k x[b, s, k] · (W[o, k] + Δ[o, k]) ) + bias[o],   Δ[o, k] = Σ_r B[o, r] · A[r, k].
  The reference adds the base product, the bias and the low-rank product in turn:
      out[b, s, o] = ( (Σ_k x[b, s, k] · W[o, k]) + bias[o] ) + Σ_k x[b, s, k] · Δ[o, k].
  On the extended reals these agree when the entries of x, W, A and B are real numbers (a real factor distributes over
  a sum of two reals; sums of sums split; addition is commutative and associative) — and the precondition says every
  input entry is finite, that is, real.

  The three frames: each kernel program terminates without a fault and leaves its arguments as they were (its frame
  run), and the reference's frame is its run with the result dropped. The idealization rewrote nothing, so the
  idealized kernel is the kernel's own text read on the extended reals.
-/
import proofs.«129016_j52836687675854_2_alg».proof.Defs
import proofs.«129016_j52836687675854_2_alg».proof.Proof.Gen.Kernel
import proofs.«129016_j52836687675854_2_alg».proof.Proof.Gen.Kernel.Skeleton
import proofs.«129016_j52836687675854_2_alg».proof.Proof.Gen.Kernel.Launch
import proofs.«129016_j52836687675854_2_alg».proof.Proof.Gen.Kernel.Points
import proofs.«129016_j52836687675854_2_alg».proof.Proof.Gen.Kernel.Frame
import proofs.«129016_j52836687675854_2_alg».proof.Proof.Gen.KernelIdeal
import proofs.«129016_j52836687675854_2_alg».proof.Proof.Gen.KernelIdeal.Skeleton
import proofs.«129016_j52836687675854_2_alg».proof.Proof.Gen.KernelIdeal.Launch
import proofs.«129016_j52836687675854_2_alg».proof.Proof.Gen.KernelIdeal.Points
import proofs.«129016_j52836687675854_2_alg».proof.Proof.Gen.KernelIdeal.Frame
import proofs.«129016_j52836687675854_2_alg».proof.Proof.Gen.ReferenceIdeal
import proofs.«129016_j52836687675854_2_alg».proof.Proof.Gen.Pre_finite_inputs
import proofs.«129016_j52836687675854_2_alg».proof.Proof.Gen.ReferenceIdeal.Run
import proofs.«129016_j52836687675854_2_alg».proof.Proof.Gen.ReferenceIdeal.Read
import proofs.«129016_j52836687675854_2_alg».proof.Proof.Spec
import proofs.«129016_j52836687675854_2_alg».proof.Proof.Finite
import proofs.«129016_j52836687675854_2_alg».proof.Proof.RefValue
import proofs.«129016_j52836687675854_2_alg».proof.Proof.KernelRun
import Idealize.ShloMosaic.Adequacy
import Idealize.ShloMosaic.Init

noncomputable section

namespace Cert.Proof

open Idealize.ShloMosaic Idealize.ShloMosaic.TcCoe Idealize.ShloMosaic.ValueIdx Idealize.SL.Sem Cert.Adapter

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result term is the separate arrangement as a whole array. -/
theorem reference_eq (x0 : FVec Ideal Cert.ReferenceIdeal.S8x2048x4096 .f32) (x1 : FVec Ideal Cert.ReferenceIdeal.S4096x4096 .f32)
    (x2 : FVec Ideal Cert.ReferenceIdeal.S4096 .f32) (x3 : FVec Ideal Cert.ReferenceIdeal.S64x4096 .f32)
    (x4 : FVec Ideal Cert.ReferenceIdeal.S4096x64 .f32) :
    Cert.ReferenceIdeal.Read.val_main_v6 (F := Ideal) x0 x1 x2 x3 x4 = separateArr x0 x1 x2 x3 x4 := by
  funext i
  obtain ⟨b, s, o, rfl⟩ : ∃ (b : Fin 8) (s : Fin 2048) (o : Fin 4096), i = ix3 b s o := ⟨i 0, i 1, i 2, eq_ix3 i⟩
  exact Cert.Adapter.Ref.result_apply x0 x1 x2 x3 x4 b s o

/-- Both idealized programs end with the layer of the shared arguments: the kernel's in the merged arrangement, the
    reference's in the separate one, equal because the precondition makes every entry of x, W, A, B real. -/
theorem algebraic : Cert.algebraic_KernelIdeal_ReferenceIdeal := by
  intro m ρ m' ρ' hpre hagree
  refine ⟨fun c => mergedArr (Cert.Adapter.KerIn.argX m c) (Cert.Adapter.KerIn.argW m c) (Cert.Adapter.KerIn.argBias m c)
    (Cert.Adapter.KerIn.argA m c) (Cert.Adapter.KerIn.argB m c), Cert.Adapter.KerRun.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, _, r3, r4⟩ := Cert.Finite.real_of_pre _ _ _ _ _ (hpre c)
  rw [Cert.ReferenceIdeal.Read.val_main_v6_eq, reference_eq, (hagree c).1, (hagree c).2.1, (hagree c).2.2.1,
    (hagree c).2.2.2.1, (hagree c).2.2.2.2]
  exact (mergedArr_eq _ _ _ _ _ r0 r1 r3 r4).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
